-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S2x131072 : Shape := ⟨2, ![2, 131072]⟩
abbrev S131072 : Shape := ⟨1, ![131072]⟩
abbrev S1x64 : Shape := ⟨2, ![1, 64]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S131072 : S_.BroadcastsInDim S131072 (![] : Fin 0 → Fin S131072.rank)
  reducesTo_S131072_S_d0 : S131072.ReducesTo [0] S_
  bcast_S_S1x64 : S_.BroadcastsInDim S1x64 (![] : Fin 0 → Fin S1x64.rank)
  reducesTo_S1x64_S_d0_1 : S1x64.ReducesTo [0, 1] S_

variable [Facts]

def fn {F : FTy → Type} [FloatOps F] (main_arg0 : FVec F S4096x128 .f32) (main_arg1 : IVec S2x131072 32) (main_arg2 : FVec F S131072 .f32) (main_arg3 : FVec F S1x64 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S131072 .f32 := Host.absf main_arg2
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  main_v13
-- ==== Kernel.lean ====
abbrev S4096x128 : Shape := ⟨2, ![4096, 128]⟩
abbrev S2x131072 : Shape := ⟨2, ![2, 131072]⟩
abbrev S131072 : Shape := ⟨1, ![131072]⟩
abbrev S1x64 : Shape := ⟨2, ![1, 64]⟩
abbrev S_ : Shape := ⟨0, ![]⟩
abbrev S4096x4096 : Shape := ⟨2, ![4096, 4096]⟩
abbrev S1x131072 : Shape := ⟨2, ![1, 131072]⟩
abbrev S131072x1 : Shape := ⟨2, ![131072, 1]⟩
abbrev S131072x2 : Shape := ⟨2, ![131072, 2]⟩
abbrev S4096 : Shape := ⟨1, ![4096]⟩
abbrev S4096x1 : Shape := ⟨2, ![4096, 1]⟩
abbrev S128x128 : Shape := ⟨2, ![128, 128]⟩
abbrev S128x128x1 : Shape := ⟨3, ![128, 128, 1]⟩
abbrev S64 : Shape := ⟨1, ![64]⟩
abbrev S1x1x64 : Shape := ⟨3, ![1, 1, 64]⟩
abbrev S128x128x64 : Shape := ⟨3, ![128, 128, 64]⟩
abbrev S128x8192 : Shape := ⟨2, ![128, 8192]⟩
abbrev S4096x8192 : Shape := ⟨2, ![4096, 8192]⟩
abbrev S128x1 : Shape := ⟨2, ![128, 1]⟩
abbrev S4096x128x64 : Shape := ⟨3, ![4096, 128, 64]⟩

abbrev nBuf : Space → Nat
  | .hbm => 71
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S2x131072, .i32⟩
  | .hbm, ⟨2, _⟩ => ⟨S131072, .f32⟩
  | .hbm, ⟨3, _⟩ => ⟨S1x64, .f32⟩
  | .hbm, ⟨4, _⟩ => ⟨S_, .f32⟩
  | .hbm, ⟨5, _⟩ => ⟨S4096x4096, .f32⟩
  | .hbm, ⟨6, _⟩ => ⟨S1x131072, .i32⟩
  | .hbm, ⟨7, _⟩ => ⟨S131072, .i32⟩
  | .hbm, ⟨8, _⟩ => ⟨S1x131072, .i32⟩
  | .hbm, ⟨9, _⟩ => ⟨S131072, .i32⟩
  | .hbm, ⟨10, _⟩ => ⟨S_, .i32⟩
  | .hbm, ⟨11, _⟩ => ⟨S131072, .i32⟩
  | .hbm, ⟨12, _⟩ => ⟨S131072, .i1⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S131072, .i32⟩
  | .hbm, ⟨17, _⟩ => ⟨S_, .i32⟩
  | .hbm, ⟨18, _⟩ => ⟨S131072, .i32⟩
  | .hbm, ⟨19, _⟩ => ⟨S131072, .i1⟩
  | .hbm, ⟨20, _⟩ => ⟨S_, .i32⟩
  | .hbm, ⟨21, _⟩ => ⟨S131072, .i32⟩
  | .hbm, ⟨22, _⟩ => ⟨S131072, .i32⟩
  | .hbm, ⟨23, _⟩ => ⟨S131072, .i32⟩
  | .hbm, ⟨24, _⟩ => ⟨S131072x1, .i32⟩
  | .hbm, ⟨25, _⟩ => ⟨S131072x1, .i32⟩
  | .hbm, ⟨26, _⟩ => ⟨S131072x2, .i32⟩
  | .hbm, ⟨27, _⟩ => ⟨S4096x4096, .f32⟩
  | .hbm, ⟨28, _⟩ => ⟨S4096x4096, .i32⟩
  | .hbm, ⟨29, _⟩ => ⟨S4096x4096, .i32⟩
  | .hbm, ⟨30, _⟩ => ⟨S_, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .i1⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x4096, .bf16⟩
  | .hbm, ⟨49, _⟩ => ⟨S4096x1, .f32⟩
  | .hbm, ⟨50, _⟩ => ⟨S4096x128, .f32⟩
  | .hbm, ⟨51, _⟩ => ⟨S4096x128, .f32⟩
  | .hbm, ⟨52, _⟩ => ⟨S4096x128, .bf16⟩
  | .hbm, ⟨53, _⟩ => ⟨S4096x1, .f32⟩
  | .hbm, ⟨54, _⟩ => ⟨S128x128, .i32⟩
  | .hbm, ⟨55, _⟩ => ⟨S128x128, .i32⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S128x128, .f32⟩
  | .hbm, ⟨61, _⟩ => ⟨S128x128x1, .f32⟩
  | .hbm, ⟨62, _⟩ => ⟨S64, .f32⟩
  | .hbm, ⟨63, _⟩ => ⟨S1x1x64, .f32⟩
  | .hbm, ⟨64, _⟩ => ⟨S128x128x64, .f32⟩
  | .hbm, ⟨65, _⟩ => ⟨S128x128x64, .f32⟩
  | .hbm, ⟨66, _⟩ => ⟨S128x128x64, .f32⟩
  | .hbm, ⟨67, _⟩ => ⟨S128x8192, .f32⟩
  | .hbm, ⟨68, _⟩ => ⟨S128x8192, .bf16⟩
  | .hbm, ⟨69, _⟩ => ⟨S4096x8192, .f32⟩
  | .hbm, ⟨70, _⟩ => ⟨S4096x128x64, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S128x8192, .bf16⟩
  | .local _ .vmem, ⟨4, _⟩ => ⟨S128x1, .f32⟩
  | .local _ .vmem, ⟨5, _⟩ => ⟨S128x1, .f32⟩
  | .local _ .vmem, ⟨6, _⟩ => ⟨S128x8192, .f32⟩
  | .local _ .vmem, ⟨7, _⟩ => ⟨S128x8192, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_call0_v0 : Ref sig .tc := ⟨.hbm, 45, rfl⟩
abbrev main_call0_v1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S4096x4096 : S_.BroadcastsInDim S4096x4096 (![] : Fin 0 → Fin S4096x4096.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  reducesTo_S4096x4096_S4096_d1 : S4096x4096.ReducesTo [1] S4096
  h_S_ : 0 < S_.numel
  bcast_S_S4096 : S_.BroadcastsInDim S4096 (![] : Fin 0 → Fin S4096.rank)
  bitsLt_bf16_f32 : FTy.bits .bf16 < FTy.bits .f32
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  shapeCasts_S1x64_S64 : S1x64.ShapeCasts S64
  bcast_S64_S1x1x64_2 : S64.BroadcastsInDim S1x1x64 (![2] : Fin 1 → Fin S1x1x64.rank)
  bcast_S128x128x1_S128x128x64_0_1_2 : S128x128x1.BroadcastsInDim S128x128x64 (![0, 1, 2] : Fin 3 → Fin S128x128x64.rank)
  bcast_S1x1x64_S128x128x64_0_1_2 : S1x1x64.BroadcastsInDim S128x128x64 (![0, 1, 2] : Fin 3 → Fin S128x128x64.rank)
  shapeCasts_S128x128x64_S128x8192 : S128x128x64.ShapeCasts S128x8192
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x128 : S128x1.Broadcasts S128x128
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  shapeCasts_S4096x8192_S4096x128x64 : S4096x8192.ShapeCasts S4096x128x64
  scatter_S4096x4096_S131072x2_S131072_n_01_01_1_wf : ScatterDims.WF S4096x4096 S131072x2 S131072 [] [0, 1] [0, 1] 1
  dot_S4096x128_S4096x128_S128x128_0_0_1_1_n_n_wf : DotDims.WF S4096x128 S4096x128 S128x128 [0] [0] [1] [1] [] []
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x4096.size a
  hwx0_0 : ∀ i : grid0.Coords, EltTy.bits .bf16 = 32 ∨ (Rect.block (s := S4096x4096) S4096x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S128x8192.size a
  hwx0_2 : ∀ i : grid0.Coords, EltTy.bits .bf16 = 32 ∨ (Rect.block (s := S128x8192) S128x8192.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S4096x1.size a
  hwx0_3 : ∀ i : grid0.Coords, EltTy.bits .f32 = 32 ∨ (Rect.block (s := S4096x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x8192.size a ≤ S4096x8192.size a
  hwx0_4 : ∀ i : grid0.Coords, EltTy.bits .f32 = 32 ∨ (Rect.block (s := S4096x8192) S128x8192.size (cc0_transform_4 i) (hinb0_4 i)).WholeWords (EltTy.packing .f32)

variable [Facts₀]

def scatter_S4096x4096_S131072x2_S131072_n_01_01_1 : ScatterDims S4096x4096 S131072x2 S131072 where
  updateWindowDims := []
  insertedWindowDims := [0, 1]
  scatterDimsToOperandDims := [0, 1]
  indexVectorDim := 1
  wf := scatter_S4096x4096_S131072x2_S131072_n_01_01_1_wf
def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf
def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_v32) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S128x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v52) S128x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x128 : Shape := ⟨2, ![4096, 128]⟩
abbrev S2x131072 : Shape := ⟨2, ![2, 131072]⟩
abbrev S131072 : Shape := ⟨1, ![131072]⟩
abbrev S1x64 : Shape := ⟨2, ![1, 64]⟩
abbrev S_ : Shape := ⟨0, ![]⟩
abbrev S4096x4096 : Shape := ⟨2, ![4096, 4096]⟩
abbrev S1x131072 : Shape := ⟨2, ![1, 131072]⟩
abbrev S131072x1 : Shape := ⟨2, ![131072, 1]⟩
abbrev S131072x2 : Shape := ⟨2, ![131072, 2]⟩
abbrev S4096 : Shape := ⟨1, ![4096]⟩
abbrev S1x4096 : Shape := ⟨2, ![1, 4096]⟩
abbrev S4096x128x1 : Shape := ⟨3, ![4096, 128, 1]⟩
abbrev S64 : Shape := ⟨1, ![64]⟩
abbrev S1x1x64 : Shape := ⟨3, ![1, 1, 64]⟩
abbrev S4096x128x64 : Shape := ⟨3, ![4096, 128, 64]⟩

abbrev nBuf : Space → Nat
  | .hbm => 63
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S2x131072, .i32⟩
  | .hbm, ⟨2, _⟩ => ⟨S131072, .f32⟩
  | .hbm, ⟨3, _⟩ => ⟨S1x64, .f32⟩
  | .hbm, ⟨4, _⟩ => ⟨S_, .f32⟩
  | .hbm, ⟨5, _⟩ => ⟨S4096x4096, .f32⟩
  | .hbm, ⟨6, _⟩ => ⟨S1x131072, .i32⟩
  | .hbm, ⟨7, _⟩ => ⟨S131072, .i32⟩
  | .hbm, ⟨8, _⟩ => ⟨S1x131072, .i32⟩
  | .hbm, ⟨9, _⟩ => ⟨S131072, .i32⟩
  | .hbm, ⟨10, _⟩ => ⟨S_, .i32⟩
  | .hbm, ⟨11, _⟩ => ⟨S131072, .i32⟩
  | .hbm, ⟨12, _⟩ => ⟨S131072, .i1⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S131072, .i32⟩
  | .hbm, ⟨17, _⟩ => ⟨S_, .i32⟩
  | .hbm, ⟨18, _⟩ => ⟨S131072, .i32⟩
  | .hbm, ⟨19, _⟩ => ⟨S131072, .i1⟩
  | .hbm, ⟨20, _⟩ => ⟨S_, .i32⟩
  | .hbm, ⟨21, _⟩ => ⟨S131072, .i32⟩
  | .hbm, ⟨22, _⟩ => ⟨S131072, .i32⟩
  | .hbm, ⟨23, _⟩ => ⟨S131072, .i32⟩
  | .hbm, ⟨24, _⟩ => ⟨S131072x1, .i32⟩
  | .hbm, ⟨25, _⟩ => ⟨S131072x1, .i32⟩
  | .hbm, ⟨26, _⟩ => ⟨S131072x2, .i32⟩
  | .hbm, ⟨27, _⟩ => ⟨S4096x4096, .f32⟩
  | .hbm, ⟨28, _⟩ => ⟨S4096x4096, .i32⟩
  | .hbm, ⟨29, _⟩ => ⟨S4096x4096, .i32⟩
  | .hbm, ⟨30, _⟩ => ⟨S_, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .i1⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S1x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S1x4096, .f32⟩
  | .hbm, ⟨53, _⟩ => ⟨S4096x4096, .f32⟩
  | .hbm, ⟨54, _⟩ => ⟨S4096x4096, .f32⟩
  | .hbm, ⟨55, _⟩ => ⟨S4096x128, .f32⟩
  | .hbm, ⟨56, _⟩ => ⟨S4096x128x1, .f32⟩
  | .hbm, ⟨57, _⟩ => ⟨S64, .f32⟩
  | .hbm, ⟨58, _⟩ => ⟨S1x1x64, .f32⟩
  | .hbm, ⟨59, _⟩ => ⟨S4096x128x64, .f32⟩
  | .hbm, ⟨60, _⟩ => ⟨S4096x128x64, .f32⟩
  | .hbm, ⟨61, _⟩ => ⟨S4096x128x64, .f32⟩
  | .hbm, ⟨62, _⟩ => ⟨S4096x128x64, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_call0_v0 : Ref sig .tc := ⟨.hbm, 45, rfl⟩
abbrev main_call0_v1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  reducesTo_S4096x4096_S4096_d1 : S4096x4096.ReducesTo [1] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  bcast_S4096x128_S4096x128x1_0_1 : S4096x128.BroadcastsInDim S4096x128x1 (![0, 1] : Fin 2 → Fin S4096x128x1.rank)
  shapeCasts_S1x64_S64 : S1x64.ShapeCasts S64
  bcast_S64_S1x1x64_2 : S64.BroadcastsInDim S1x1x64 (![2] : Fin 1 → Fin S1x1x64.rank)
  bcast_S4096x128x1_S4096x128x64_0_1_2 : S4096x128x1.BroadcastsInDim S4096x128x64 (![0, 1, 2] : Fin 3 → Fin S4096x128x64.rank)
  bcast_S1x1x64_S4096x128x64_0_1_2 : S1x1x64.BroadcastsInDim S4096x128x64 (![0, 1, 2] : Fin 3 → Fin S4096x128x64.rank)
  scatter_S4096x4096_S131072x2_S131072_n_01_01_1_wf : ScatterDims.WF S4096x4096 S131072x2 S131072 [] [0, 1] [0, 1] 1
  dot_S4096x4096_S4096x128_S4096x128_1_0_0_1_n_n_wf : DotDims.WF S4096x4096 S4096x128 S4096x128 [1] [0] [0] [1] [] []

variable [Facts₀]

def scatter_S4096x4096_S131072x2_S131072_n_01_01_1 : ScatterDims S4096x4096 S131072x2 S131072 where
  updateWindowDims := []
  insertedWindowDims := [0, 1]
  scatterDimsToOperandDims := [0, 1]
  indexVectorDim := 1
  wf := scatter_S4096x4096_S131072x2_S131072_n_01_01_1_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.GcnSpec.lean ====
/-
  The normalized graph convolution with an outer product and tanh, as one function of four arrays.

  Given a square matrix A (the adjacency with self-loops), a vector d (the inverse square roots of A's row sums),
  node features x and a weight row w, the entry at node n, feature t, channel k is

      tanh ( ( ∑ j, ((A[j, n] * d[n]) * d[j]) * x[j, t] ) * w[0, k] ).

  The entry (n, j) of the symmetrically normalized, transposed matrix is (A[j, n] * d[n]) * d[j]; the sum over j is
  its product with the features; the last factor is the outer product with the weights.
-/
import Idealize.ShloMosaic.PureOps.Ideal
import Idealize.ShloMosaic.Lib.ValueIdx

noncomputable section

namespace Cert.GcnSpec

open Idealize.ShloMosaic Idealize.ShloMosaic.ValueIdx

/-- The result at node `n`, feature `t`, channel `k`. -/
def entry (A : (⟨2, ![4096, 4096]⟩ : Shape).Idx → EReal) (d : (⟨1, ![4096]⟩ : Shape).Idx → EReal)
    (x : (⟨2, ![4096, 128]⟩ : Shape).Idx → EReal) (w : (⟨2, ![1, 64]⟩ : Shape).Idx → EReal)
    (n : Fin 4096) (t : Fin 128) (k : Fin 64) : EReal :=
  Ideal.tanh ((∑ j : Fin 4096, ((A (ix2 j n) * d (ix1 n)) * d (ix1 j)) * x (ix2 j t)) * w (ix2 (0 : Fin 1) k))

/-- The whole result array. -/
def result (A : (⟨2, ![4096, 4096]⟩ : Shape).Idx → EReal) (d : (⟨1, ![4096]⟩ : Shape).Idx → EReal)
    (x : (⟨2, ![4096, 128]⟩ : Shape).Idx → EReal) (w : (⟨2, ![1, 64]⟩ : Shape).Idx → EReal) :
    (⟨3, ![4096, 128, 64]⟩ : Shape).Idx → EReal :=
  fun i => entry A d x w (i 0) (i 1) (i 2)

end Cert.GcnSpec

end
-- ==== Proof.RefValue.lean ====
/-
  The reference program computes the normalized graph convolution of the specification.

  Read index by index, the reference's result at (n, t, k) is tanh of the product of w[0, k] with the (n, t) entry
  of a matrix product: row n of the normalized matrix against column t of the features. The normalized matrix is the
  adjacency A scaled along its columns by d, transposed, and scaled along its columns by d again, so its entry
  (n, j) is (A[j, n] * d[n]) * d[j]. Nothing here needs finiteness: the two sides are the same expression.
-/
import proofs.«178938_j60765197304390_2_alg».proof.Proof.Gen.ReferenceIdeal.Read
import proofs.«178938_j60765197304390_2_alg».proof.Proof.GcnSpec

noncomputable section

namespace Cert.GcnRef

open Cert.ReferenceIdeal Cert.ReferenceIdeal.Read Idealize.ShloMosaic Idealize.ShloMosaic.ValueIdx

/-- The reference's result, as a function of the adjacency `A` and the normalizer `d` it computes on the way. -/
theorem reference_eq (x : (⟨S4096x128, .f32⟩ : BufTy).Contents (Elt Ideal)) (ei : (⟨S2x131072, .i32⟩ : BufTy).Contents (Elt Ideal))
    (ew : (⟨S131072, .f32⟩ : BufTy).Contents (Elt Ideal)) (w : (⟨S1x64, .f32⟩ : BufTy).Contents (Elt Ideal)) :
    val_main_v46 (F := Ideal) x ei ew w
      = Cert.GcnSpec.result (val_main_v25 (F := Ideal) ei ew) (val_main_v31 (F := Ideal) ei ew) x w := by
  funext i
  obtain ⟨n, t, k, rfl⟩ : ∃ (n : Fin 4096) (t : Fin 128) (k : Fin 64), i = ix3 n t k := ⟨i 0, i 1, i 2, eq_ix3 i⟩
  have ea : ∀ j : Fin 4096, idx_main_v35 (lidx_main_v39 (idx_main_v40 (idx_main_v43 (ix3 n t k))) j) = ix2 j n :=
    fun j => funext fun a => Fin.ext (by match a with | ⟨0, _⟩ => rfl | ⟨1, _⟩ => rfl)
  have eb : ∀ j : Fin 4096, idx_main_v32 (idx_main_v33 (ix2 j n : S4096x4096.Idx)) = ix1 n :=
    fun j => funext fun a => Fin.ext (by match a with | ⟨0, _⟩ => rfl)
  have ec : ∀ j : Fin 4096,
      idx_main_v36 (idx_main_v37 (lidx_main_v39 (idx_main_v40 (idx_main_v43 (ix3 n t k))) j)) = ix1 j :=
    fun j => funext fun a => Fin.ext (by match a with | ⟨0, _⟩ => rfl)
  have ed : ∀ j : Fin 4096, ridx_main_v39 (idx_main_v40 (idx_main_v43 (ix3 n t k))) j = ix2 j t :=
    fun j => funext fun a => Fin.ext (by match a with | ⟨0, _⟩ => rfl | ⟨1, _⟩ => rfl)
  have ee : idx_main_v41 (idx_main_v42 (idx_main_v44 (ix3 n t k))) = ix2 (0 : Fin 1) k :=
    funext fun a => Fin.ext (by
      match a with
      | ⟨0, _⟩ => rfl
      | ⟨1, _⟩ => exact Nat.mod_eq_of_lt k.isLt)
  rw [val_main_v46_apply, val_main_v45_apply, val_main_v43_apply, val_main_v40_apply, val_main_v39_apply,
    val_main_v44_apply, val_main_v42_apply, val_main_v41_apply, ee]
  simp only [val_main_v38_apply, val_main_v35_apply, val_main_v34_apply, val_main_v37_apply, val_main_v36_apply,
    val_main_v33_apply, val_main_v32_apply, ea, eb, ec, ed, Ideal.mulf_def, Ideal.hostUnary_tanh_def]
  rfl

end Cert.GcnRef

end
-- ==== Proof.LibRealsInEReal.lean ====
/-
  Real numbers inside the extended reals.

  At the ideal reading a float is an extended real, and the laws a value proof needs — distributing a product over a
  sum, exchanging a factor with a finite sum — hold only among real numbers. This file names the extended reals that
  are real numbers (`IsReal`) and shows them closed under what kernels compute with: sums, products, differences,
  maxima, finite sums, the square root of a sum of squares, and the quotient by a nonzero real. It also has the
  inclusion of the reals commuting with finite sums (`coe_sum`).
-/
import Idealize.ShloMosaic.PureOps.Ideal.Laws

noncomputable section

open Idealize.ShloMosaic

namespace Cert.Lib.RealsInEReal

/-! ## Real numbers inside the extended reals -/

/-- An extended real that is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

/-- The inclusion of the reals commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of squares of real numbers is a nonnegative real number. -/
theorem sum_sq_real {ι : Type*} (s : Finset ι) (f : ι → EReal) (h : ∀ i ∈ s, IsReal (f i)) :
    ∃ r : ℝ, 0 ≤ r ∧ ∑ i ∈ s, f i * f i = (r : EReal) := by
  classical
  have hr : ∀ i : ι, ∃ r : ℝ, i ∈ s → f i = (r : EReal) := fun i => by
    by_cases hi : i ∈ s
    · obtain ⟨r, hr⟩ := h i hi; exact ⟨r, fun _ => hr⟩
    · exact ⟨0, fun hi' => absurd hi' hi⟩
  choose g hg using hr
  refine ⟨∑ i ∈ s, g i * g i, Finset.sum_nonneg fun i _ => mul_self_nonneg _, ?_⟩
  rw [coe_sum]
  exact Finset.sum_congr rfl fun i hi => by rw [hg i hi, EReal.coe_mul]

/-- The square root of a nonnegative real number is a nonnegative real number. -/
theorem sqrt_real {r : ℝ} (h : 0 ≤ r) : Ideal.sqrt (r : EReal) = ((Real.sqrt r : ℝ) : EReal) := by
  rw [Ideal.sqrt_coe, if_neg (not_lt.mpr h)]

/-- A real number divided by a nonzero real number is their real quotient. -/
theorem div_real (a : ℝ) {n : ℝ} (h : n ≠ 0) : Ideal.div (a : EReal) (n : EReal) = ((a / n : ℝ) : EReal) := by
  rw [Ideal.div_coe h, ← EReal.coe_mul, mul_one_div]

theorem IsReal.div {x y : EReal} (hx : IsReal x) (hy : IsReal y) (h0 : y ≠ 0) : IsReal (Ideal.div x y) := by
  obtain ⟨a, rfl⟩ := hx; obtain ⟨n, rfl⟩ := hy
  have hn : n ≠ 0 := fun h => h0 (by rw [h]; rfl)
  exact ⟨a / n, div_real a hn⟩

end Cert.Lib.RealsInEReal

end
-- ==== Proof.LibScatterKeeps.lean ====
/-
  A scatter whose combining function keeps the update (a "set"), read at any operand index, holds an element of
  the operand or one of the updates.

  The scatter is a left fold over the update indices; each step either leaves the array alone (the update lands
  outside the operand) or overwrites one element by an update. So whatever property every element of the operand
  and every update has, every element of the result has — however many updates land on one index, and in
  whatever order they are taken.
-/
import Idealize.ShloMosaic.PureOps.ShapeOps
import Mathlib.Data.List.Basic

namespace Idealize.ShloMosaic.ScatterKeeps

open Idealize.ShloMosaic

/-- A left fold of steps each of which preserves "every element satisfies `P`" preserves it. -/
theorem foldl_forall {ι β κ : Type} (P : β → Prop) (step : (ι → β) → κ → (ι → β))
    (hstep : ∀ r n, (∀ i, P (r i)) → ∀ i, P (step r n i)) :
    ∀ (l : List κ) (x : ι → β), (∀ i, P (x i)) → ∀ i, P (l.foldl step x i)
  | [], _, h => h
  | n :: l, x, h => by
    rw [List.foldl_cons]
    exact foldl_forall P step hstep l (step x n) (hstep x n h)

/-- Every element of a "set" scatter's result satisfies a property that every element of the operand and every
    update satisfies. -/
theorem scatter_set_forall {α : Type} {s si u : Shape} {w : Nat} (d : ScatterDims s si u) (P : α → Prop)
    (x : s.Idx → α) (idx : IVec si w) (upd : u.Idx → α) (hx : ∀ i, P (x i)) (hu : ∀ j, P (upd j)) (i : s.Idx) :
    P (Host.scatter d (fun _ b => b) x idx upd i) := by
  unfold Host.scatter
  refine foldl_forall P _ (fun r n hr i' => ?_) _ x hx i
  dsimp only
  generalize d.resultIdx? (u.rowMajor.symm n) idx = o
  cases o with
  | none => exact hr i'
  | some i0 =>
    show P (if i' = i0 then upd (u.rowMajor.symm n) else r i')
    by_cases h : i' = i0
    · rw [if_pos h]; exact hu _
    · rw [if_neg h]; exact hr i'

end Idealize.ShloMosaic.ScatterKeeps
-- ==== Proof.GraphReal.lean ====
/-
  The adjacency with self-loops and its normalizer are real, when the edge weights are.

  The adjacency is a zero matrix overwritten at some entries by edge weights, plus an identity matrix: each entry is a
  sum of (zero or an edge weight) and (zero or one). A row sum of real numbers is real. The normalizer is, where the row
  sum is positive, the row sum raised to the power -1/2 — a real power of a real number — and zero elsewhere.
-/
import proofs.«178938_j60765197304390_2_alg».proof.Proof.Gen.ReferenceIdeal.Read
import proofs.«178938_j60765197304390_2_alg».proof.Proof.LibRealsInEReal
import proofs.«178938_j60765197304390_2_alg».proof.Proof.LibScatterKeeps

noncomputable section

namespace Cert.GcnRef

open Cert.ReferenceIdeal Cert.ReferenceIdeal.Read Idealize.ShloMosaic Idealize.ShloMosaic.ValueIdx Cert.Lib.RealsInEReal

/-- The exponent the host raises the row sums to is a real number (it is -1/2). -/
theorem exponent_real : IsReal (Ideal.ofBits .f32 0xBF000000#32) := by
  have h : Ideal.ofBits .f32 0xBF000000#32 = ((-(1 / 2) : ℝ) : EReal) := by
    simp [Ideal.ofBits, Ideal.ieee, -EReal.coe_mul, -EReal.coe_neg]
    norm_num
  rw [h]
  exact isReal_coe _

/-- Every entry of the adjacency with self-loops is real. -/
theorem adjacency_real (ei : (⟨S2x131072, .i32⟩ : BufTy).Contents (Elt Ideal)) (ew : (⟨S131072, .f32⟩ : BufTy).Contents (Elt Ideal))
    (hw : ∀ i, IsReal (ew i)) (i : S4096x4096.Idx) : IsReal (val_main_v25 (F := Ideal) ei ew i) := by
  rw [val_main_v25_apply]
  show IsReal (val_main_v18 (F := Ideal) ei ew i + val_main_v24 (F := Ideal) i)
  refine IsReal.add ?_ ?_
  · unfold val_main_v18
    refine Idealize.ShloMosaic.ScatterKeeps.scatter_set_forall _ IsReal _ _ _ (fun i' => ?_) hw i
    rw [val_main_v0_apply, val_main_cst_apply]
    show IsReal (Ideal.ofBits .f32 0x00000000#32)
    rw [Ideal.ofBits_zero_f32]
    exact isReal_zero
  · rw [val_main_v24_apply]
    exact ⟨((val_main_v23 (F := Ideal) i).toNat : ℝ), rfl⟩

/-- Every row sum of the adjacency is real. -/
theorem rowsum_real (ei : (⟨S2x131072, .i32⟩ : BufTy).Contents (Elt Ideal)) (ew : (⟨S131072, .f32⟩ : BufTy).Contents (Elt Ideal))
    (hw : ∀ i, IsReal (ew i)) (i : S4096.Idx) : IsReal (val_main_v26 (F := Ideal) ei ew i) := by
  rw [val_main_v26_apply]
  refine IsReal.add ?_ (isReal_sum _ _ fun k _ => adjacency_real ei ew hw _)
  rw [val_main_cst_4_apply]
  show IsReal (Ideal.ofBits .f32 0x00000000#32)
  rw [Ideal.ofBits_zero_f32]
  exact isReal_zero

/-- Every entry of the normalizer is real. -/
theorem normalizer_real (ei : (⟨S2x131072, .i32⟩ : BufTy).Contents (Elt Ideal)) (ew : (⟨S131072, .f32⟩ : BufTy).Contents (Elt Ideal))
    (hw : ∀ i, IsReal (ew i)) (i : S4096.Idx) : IsReal (val_main_v31 (F := Ideal) ei ew i) := by
  rw [val_main_v31_apply]
  rcases BitVec.eq_zero_or_eq_one (val_main_v28 (F := Ideal) ei ew i) with h | h
  · rw [h, select_zero, val_main_call0_v1_apply, val_main_call0_v0_apply]
    show IsReal (Ideal.ofBits .f32 0x00000000#32)
    rw [Ideal.ofBits_zero_f32]
    exact isReal_zero
  · rw [h, select_one, val_main_v30_apply, val_main_v29_apply, val_main_cst_6_apply]
    obtain ⟨s, hs⟩ := rowsum_real ei ew hw i
    obtain ⟨e, he⟩ := exponent_real
    show IsReal (Ideal.pow (val_main_v26 (F := Ideal) ei ew i) (Ideal.ofBits .f32 0xBF000000#32))
    rw [hs, he, Ideal.pow_coe_coe]
    exact isReal_coe _

end Cert.GcnRef

end
-- ==== Proof.FiniteInputs.lean ====
/-
  Finite inputs are real numbers.

  The precondition says, of each float argument, that every entry's absolute value is below +∞ (an "all" of
  comparisons, the three arguments' conjoined). On the extended reals |x| = max x (-x), and |x| < +∞ rules out both
  infinities, so every entry of the features and of the edge weights is a real number.
-/
import proofs.«178938_j60765197304390_2_alg».proof.Pre_finite_inputs
import proofs.«178938_j60765197304390_2_alg».proof.Proof.Gen.Pre_finite_inputs
import proofs.«178938_j60765197304390_2_alg».proof.Proof.LibRealsInEReal
import Idealize.ShloMosaic.Lib.ReduceAll
import Idealize.ShloMosaic.Lib.Affine
import Idealize.ShloMosaic.Lib.ValueIdx

noncomputable section

namespace Cert.GcnFinite

open Idealize.ShloMosaic Cert.Lib.RealsInEReal Cert.Pre_finite_inputs

instance : Subsingleton S_.Idx := ⟨fun a b => funext fun d => d.elim0⟩

/-- An extended real whose absolute value is below +∞ is a real number. -/
theorem isReal_of_abs_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every feature and every edge weight is a real number. -/
theorem inputs_real (x : FVec Ideal S4096x128 .f32) (ei : IVec S2x131072 32) (ew : FVec Ideal S131072 .f32) (w : FVec Ideal S1x64 .f32)
    (h : fn (F := Ideal) x ei ew w = fun _ => 1#1) : (∀ i, IsReal (x i)) ∧ (∀ i, IsReal (ew i)) := by
  have h0 := congrFun h ValueIdx.ix0
  dsimp only [fn] at h0
  obtain ⟨h1, -⟩ := IntOp.andi_eq_one.mp h0
  obtain ⟨hx, hw⟩ := IntOp.andi_eq_one.mp h1
  refine ⟨fun i => isReal_of_abs_lt _ ?_, fun i => isReal_of_abs_lt _ ?_⟩
  · exact Host.reduce_andi_all _ _ _ _ _ hx i
  · exact Host.reduce_andi_all _ _ _ _ _ hw i

end Cert.GcnFinite

end
-- ==== Proof.KernelHost.lean ====
/-
  What the kernel's region finds in its four input arrays.

  Before the region the host builds, from the arguments: the adjacency with self-loops A and the normalizer d — by
  the very operations the reference uses, so they are the reference's own stages of the same arguments —; the scaled
  features y[j, t] = d[j] * x[j, t]; the normalizer as a column; and the replicated weights, a 128 × 8192 matrix
  whose entry (t', t * 64 + k) is δ(t', t) * w[0, k], built as the outer product of a 128 × 128 identity matrix with
  the weight row and flattened over its last two axes. Changes of float format are the identity on the extended
  reals.
-/
import proofs.«178938_j60765197304390_2_alg».proof.Proof.Gen.KernelIdeal.Frame
import proofs.«178938_j60765197304390_2_alg».proof.Proof.Gen.ReferenceIdeal.Read
import Idealize.ShloMosaic.Lib.StableHlo.Run
import Idealize.ShloMosaic.Lib.ValueIdx
import Idealize.ShloMosaic.Lib.Pipeline.Value

noncomputable section

namespace Cert.GcnKernel

open Cert.KernelIdeal Cert.KernelIdeal.Gen Idealize.ShloMosaic Idealize.ShloMosaic.TcCoe Idealize.SL.Sem
open Idealize.ShloMosaic.StableHlo Idealize.ShloMosaic.ValueIdx

/-! ## The host's three derived operands, as functions of the normalizer, the features and the weights -/

/-- The features scaled row by row by the normalizer. -/
def scaledFeatures (d : FVec Ideal S4096 .f32) (x : FVec Ideal S4096x128 .f32) : FVec Ideal S4096x128 .f32 :=
  mulf (broadcastInDim S4096x128 ![0, 1] bcast_S4096x1_S4096x128_0_1 (broadcastInDim S4096x1 ![0] bcast_S4096_S4096x1_0 d)) x

/-- The normalizer as a column. -/
def normalizerColumn (d : FVec Ideal S4096 .f32) : FVec Ideal S4096x1 .f32 :=
  broadcastInDim S4096x1 ![0] bcast_S4096_S4096x1_0 d

/-- The identity matrix of size 128, as the host spells it: a comparison of the two coordinates, converted to a float. -/
def identity128 : FVec Ideal S128x128 .f32 :=
  uitofp .f32 (cmpi .eq (addi (iotaInDim S128x128 32 0) (broadcastInDim S128x128 ![] bcast_S_S128x128 (constantI S_ 32 0#32)))
    (iotaInDim S128x128 32 1))

/-- The weights replicated along the diagonal of a 128 × (128 · 64) matrix. -/
def replicatedWeights (w : FVec Ideal S1x64 .f32) : FVec Ideal S128x8192 .f32 :=
  shapeCast S128x8192
    (mulf
      (broadcastInDim S128x128x64 ![0, 1, 2] bcast_S128x128x1_S128x128x64_0_1_2
        (broadcastInDim S128x128x1 ![0, 1] bcast_S128x128_S128x128x1_0_1 identity128))
      (broadcastInDim S128x128x64 ![0, 1, 2] bcast_S1x1x64_S128x128x64_0_1_2
        (broadcastInDim S1x1x64 ![2] bcast_S64_S1x1x64_2 (shapeCast S64 w shapeCasts_S1x64_S64))))
    shapeCasts_S128x128x64_S128x8192

/-! ## The arrays as the region finds them -/

variable (m : (ℓ : Loc nD τ sig) → Buf (Elt Ideal) ℓ) (c : Dev nD)

set_option maxRecDepth 8192 in
set_option maxHeartbeats 2000000 in
/-- The first operand is the adjacency with self-loops: the reference's stage of the same edge arguments. -/
theorem entry_adjacency :
    (V m c main_v32 : S4096x4096.Idx → EReal)
      = Cert.ReferenceIdeal.Read.val_main_v25 (F := Ideal) (m ((c : Thread nD τ).loc main_arg1)) (m ((c : Thread nD τ).loc main_arg2)) := by
  dsimp only [Gen.V, Gen.V0]
  simp only [Gen.hostOps0, Gen.hostOps0_1, Gen.hostOps0_2, List.flatten_cons, List.flatten_nil, List.append_nil, List.cons_append,
    List.nil_append]
  after_results_simp <;> rfl

set_option maxRecDepth 8192 in
set_option maxHeartbeats 2000000 in
/-- The fourth operand is the normalizer (the reference's stage of the same edge arguments) as a column. -/
theorem entry_normalizer :
    (V m c main_v37 : S4096x1.Idx → EReal)
      = normalizerColumn (Cert.ReferenceIdeal.Read.val_main_v31 (F := Ideal) (m ((c : Thread nD τ).loc main_arg1)) (m ((c : Thread nD τ).loc main_arg2))) := by
  dsimp only [Gen.V, Gen.V0]
  simp only [Gen.hostOps0, Gen.hostOps0_1, Gen.hostOps0_2, List.flatten_cons, List.flatten_nil, List.append_nil, List.cons_append,
    List.nil_append]
  after_results_simp <;> rfl

set_option maxRecDepth 8192 in
set_option maxHeartbeats 2000000 in
/-- The second operand is the features scaled by the normalizer. -/
theorem entry_features :
    (V m c main_v36 : S4096x128.Idx → EReal)
      = scaledFeatures (Cert.ReferenceIdeal.Read.val_main_v31 (F := Ideal) (m ((c : Thread nD τ).loc main_arg1)) (m ((c : Thread nD τ).loc main_arg2)))
          (m ((c : Thread nD τ).loc main_arg0)) := by
  dsimp only [Gen.V, Gen.V0]
  simp only [Gen.hostOps0, Gen.hostOps0_1, Gen.hostOps0_2, List.flatten_cons, List.flatten_nil, List.append_nil, List.cons_append,
    List.nil_append]
  after_results_simp <;> rfl

set_option maxRecDepth 8192 in
set_option maxHeartbeats 2000000 in
/-- The third operand is the replicated weights. -/
theorem entry_weights :
    (V m c main_v51 : S128x8192.Idx → EReal) = replicatedWeights (m ((c : Thread nD τ).loc main_arg3)) := by
  dsimp only [Gen.V, Gen.V0]
  simp only [Gen.hostOps0, Gen.hostOps0_1, Gen.hostOps0_2, List.flatten_cons, List.flatten_nil, List.append_nil, List.cons_append,
    List.nil_append]
  after_results_simp <;> rfl

end Cert.GcnKernel

end
-- ==== Proof.KernelPayload.lean ====
/-
  What one grid point stores, entry by entry.

  A grid point holds a column tile a of the adjacency (4096 rows, the tile's 128 columns), the scaled features y
  (4096 × 128), the 128 normalizers dc of the tile's nodes (a column) and the replicated weights wr (128 × 8192).
  It contracts a against y over their common first axis, scales row p of the product by dc[p], multiplies by wr
  and applies tanh. So the entry at row p, column q is

      tanh ( ∑ t', ((∑ j, a[j, p] * y[j, t']) * dc[p, 0]) * wr[t', q] ).

  On the extended reals a matrix product into a zero accumulator is exactly this sum, and a change of float format
  is the identity.
-/
import proofs.«178938_j60765197304390_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.GcnKernel

open Cert.KernelIdeal Cert.KernelIdeal.Gen Idealize.ShloMosaic Idealize.ShloMosaic.ValueIdx

/-- Coordinates of the operand indices of the first product (first axes contracted): the left operand's second
    coordinate is the output's row, the right operand's second coordinate the output's column. -/
theorem first_lhs_1 (i : S128x128.Idx) (q : dot_S4096x128_S4096x128_S128x128_0_0_1_1_n_n.contr.Idx) :
    (dot_S4096x128_S4096x128_S128x128_0_0_1_1_n_n.lhsIdx i q 1).val = (i 0).val := by
  unfold DotDims.lhsIdx
  rw [dif_neg (show ¬(1 : Fin S4096x128.rank) ∈ dot_S4096x128_S4096x128_S128x128_0_0_1_1_n_n.lhsBatch by decide),
    dif_pos (show (1 : Fin S4096x128.rank) ∈ dot_S4096x128_S4096x128_S128x128_0_0_1_1_n_n.lhsNonContracting by decide)]
  rfl
theorem first_rhs_1 (i : S128x128.Idx) (q : dot_S4096x128_S4096x128_S128x128_0_0_1_1_n_n.contr.Idx) :
    (dot_S4096x128_S4096x128_S128x128_0_0_1_1_n_n.rhsIdx i q 1).val = (i 1).val := by
  unfold DotDims.rhsIdx
  rw [dif_neg (show ¬(1 : Fin S4096x128.rank) ∈ dot_S4096x128_S4096x128_S128x128_0_0_1_1_n_n.rhsBatch by decide),
    dif_pos (show (1 : Fin S4096x128.rank) ∈ dot_S4096x128_S4096x128_S128x128_0_0_1_1_n_n.rhsNonContracting by decide)]
  rfl

/-- The product contracting the FIRST axis of both operands, read at (p, t): `∑ j, l[j, p] * r[j, t]`. -/
theorem matmul_first_axes (l r : FVec Ideal S4096x128 .bf16) (p t : Fin 128) :
    matmul dot_S4096x128_S4096x128_S128x128_0_0_1_1_n_n none l r (constant S128x128 .f32 0x00000000#32) (ix2 p t)
      = ∑ j : Fin 4096, l (ix2 j p) * r (ix2 j t) := by
  refine (Ideal.matmul_constant_zero_apply dot_S4096x128_S4096x128_S128x128_0_0_1_1_n_n none l r (ix2 p t)).trans ?_
  rw [← Equiv.sum_comp (contrEquiv1 dot_S4096x128_S4096x128_S128x128_0_0_1_1_n_n 4096 rfl rfl).symm]
  refine Finset.sum_congr rfl fun k _ => ?_
  have hk := contrEquiv1_symm_val dot_S4096x128_S4096x128_S128x128_0_0_1_1_n_n 4096 rfl rfl k
  have el : dot_S4096x128_S4096x128_S128x128_0_0_1_1_n_n.lhsIdx (ix2 p t) ((contrEquiv1 dot_S4096x128_S4096x128_S128x128_0_0_1_1_n_n 4096 rfl rfl).symm k) = ix2 k p :=
    funext fun a => Fin.ext (by
      match a with
      | ⟨0, _⟩ => exact (dot_S4096x128_S4096x128_S128x128_0_0_1_1_n_n.lhsIdx_val_of_single rfl _ _).trans hk
      | ⟨1, _⟩ => exact first_lhs_1 _ _)
  have er : dot_S4096x128_S4096x128_S128x128_0_0_1_1_n_n.rhsIdx (ix2 p t) ((contrEquiv1 dot_S4096x128_S4096x128_S128x128_0_0_1_1_n_n 4096 rfl rfl).symm k) = ix2 k t :=
    funext fun a => Fin.ext (by
      match a with
      | ⟨0, _⟩ => exact (dot_S4096x128_S4096x128_S128x128_0_0_1_1_n_n.rhsIdx_val_of_single rfl _ _).trans hk
      | ⟨1, _⟩ => exact first_rhs_1 _ _)
  rw [el, er]

/-- Coordinates of the operand indices of the second, plain product. -/
theorem plain_lhs_0 (i : S128x8192.Idx) (q : dot_S128x128_S128x8192_S128x8192_1_0_0_1_n_n.contr.Idx) :
    (dot_S128x128_S128x8192_S128x8192_1_0_0_1_n_n.lhsIdx i q 0).val = (i 0).val := by
  unfold DotDims.lhsIdx
  rw [dif_neg (show ¬(0 : Fin S128x128.rank) ∈ dot_S128x128_S128x8192_S128x8192_1_0_0_1_n_n.lhsBatch by decide),
    dif_pos (show (0 : Fin S128x128.rank) ∈ dot_S128x128_S128x8192_S128x8192_1_0_0_1_n_n.lhsNonContracting by decide)]
  rfl
theorem plain_rhs_1 (i : S128x8192.Idx) (q : dot_S128x128_S128x8192_S128x8192_1_0_0_1_n_n.contr.Idx) :
    (dot_S128x128_S128x8192_S128x8192_1_0_0_1_n_n.rhsIdx i q 1).val = (i 1).val := by
  unfold DotDims.rhsIdx
  rw [dif_neg (show ¬(1 : Fin S128x8192.rank) ∈ dot_S128x128_S128x8192_S128x8192_1_0_0_1_n_n.rhsBatch by decide),
    dif_pos (show (1 : Fin S128x8192.rank) ∈ dot_S128x128_S128x8192_S128x8192_1_0_0_1_n_n.rhsNonContracting by decide)]
  rfl

/-- The plain product rows × columns, read at (p, q): `∑ t', l[p, t'] * r[t', q]`. -/
theorem matmul_rows_cols (l : FVec Ideal S128x128 .bf16) (r : FVec Ideal S128x8192 .bf16) (p : Fin 128) (q : Fin 8192) :
    matmul dot_S128x128_S128x8192_S128x8192_1_0_0_1_n_n none l r (constant S128x8192 .f32 0x00000000#32) (ix2 p q)
      = ∑ t' : Fin 128, l (ix2 p t') * r (ix2 t' q) := by
  refine (Ideal.matmul_constant_zero_apply dot_S128x128_S128x8192_S128x8192_1_0_0_1_n_n none l r (ix2 p q)).trans ?_
  rw [← Equiv.sum_comp (contrEquiv1 dot_S128x128_S128x8192_S128x8192_1_0_0_1_n_n 128 rfl rfl).symm]
  refine Finset.sum_congr rfl fun k _ => ?_
  have hk := contrEquiv1_symm_val dot_S128x128_S128x8192_S128x8192_1_0_0_1_n_n 128 rfl rfl k
  have el : dot_S128x128_S128x8192_S128x8192_1_0_0_1_n_n.lhsIdx (ix2 p q) ((contrEquiv1 dot_S128x128_S128x8192_S128x8192_1_0_0_1_n_n 128 rfl rfl).symm k) = ix2 p k :=
    funext fun a => Fin.ext (by
      match a with
      | ⟨0, _⟩ => exact plain_lhs_0 _ _
      | ⟨1, _⟩ => exact (dot_S128x128_S128x8192_S128x8192_1_0_0_1_n_n.lhsIdx_val_of_single rfl _ _).trans hk)
  have er : dot_S128x128_S128x8192_S128x8192_1_0_0_1_n_n.rhsIdx (ix2 p q) ((contrEquiv1 dot_S128x128_S128x8192_S128x8192_1_0_0_1_n_n 128 rfl rfl).symm k) = ix2 k q :=
    funext fun a => Fin.ext (by
      match a with
      | ⟨0, _⟩ => exact (dot_S128x128_S128x8192_S128x8192_1_0_0_1_n_n.rhsIdx_val_of_single rfl _ _).trans hk
      | ⟨1, _⟩ => exact plain_rhs_1 _ _)
  rw [el, er]

/-- A column [128, 1] broadcast along the second axis, read at (p, t): the column's entry of row p. -/
theorem column_broadcast_apply (v : FVec Ideal S128x1 .f32) (p t : Fin 128) :
    broadcastTo S128x128 v broadcasts_S128x1_S128x128 (ix2 p t) = v (ix2 p (0 : Fin 1)) :=
  broadcastTo_apply v broadcasts_S128x1_S128x128 (ix2 p t) (ix2 p (0 : Fin 1)) (fun a => by
    match a with
    | ⟨0, _⟩ => rfl
    | ⟨1, _⟩ => rfl)

/-- What a grid point stores at row p, column q of its block. -/
theorem payload_apply (a y : Vec Ideal S4096x128 .bf16) (dc : Vec Ideal S128x1 .f32) (wr : Vec Ideal S128x8192 .bf16)
    (p : Fin 128) (q : Fin 8192) :
    k0_pay1 (F := Ideal) a y dc wr (ix2 p q)
      = Ideal.tanh (∑ t' : Fin 128, ((∑ j : Fin 4096, a (ix2 j p) * y (ix2 j t')) * dc (ix2 p (0 : Fin 1))) * wr (ix2 t' q)) := by
  unfold k0_pay1
  show Ideal.tanh (matmul (F := Ideal) dot_S128x128_S128x8192_S128x8192_1_0_0_1_n_n none _ _ (constant S128x8192 .f32 0x00000000#32) (ix2 p q)) = _
  refine congrArg Ideal.tanh ?_
  refine (matmul_rows_cols _ _ p q).trans ?_
  refine Finset.sum_congr rfl fun t' _ => ?_
  rw [shapeCast_self, shapeCast_self, shapeCast_self, shapeCast_self]
  show (matmul (F := Ideal) dot_S4096x128_S4096x128_S128x128_0_0_1_1_n_n none a y (constant S128x128 .f32 0x00000000#32) (ix2 p t')
      * broadcastTo S128x128 dc broadcasts_S128x1_S128x128 (ix2 p t')) * wr (ix2 t' q) = _
  rw [matmul_first_axes, column_broadcast_apply]

end Cert.GcnKernel

end
-- ==== Proof.KernelBlocks.lean ====
/-
  The output as one function of the operand arrays, and the blocks of those arrays a grid point holds.

  Grid point T (of 32) holds the column tile T of the adjacency operand A (all 4096 rows, columns 128 T … 128 T + 127),
  all of the scaled features Y and of the replicated weights Wr, and rows 128 T … 128 T + 127 of the normalizer
  column Dc. What it stores at row p, column q of its block is the entry (128 T + p, q) of

      (r, q) ↦ tanh ( ∑ t', ((∑ j, A[j, r] * Y[j, t']) * Dc[r, 0]) * Wr[t', q] ).
-/
import proofs.«178938_j60765197304390_2_alg».proof.Proof.Gen.KernelIdeal.Frame
import proofs.«178938_j60765197304390_2_alg».proof.Proof.KernelPayload
import Idealize.ShloMosaic.Lib.Pipeline.Value
import Idealize.ShloMosaic.Lib.StableHlo.Run

noncomputable section

namespace Cert.GcnKernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-! ## The output as one function of the operand arrays -/

/-- Entry (r, q) of the 4096 × 8192 output. -/
def flatEntry (A : S4096x4096.Idx → EReal) (Y : S4096x128.Idx → EReal) (Wr : S128x8192.Idx → EReal) (Dc : S4096x1.Idx → EReal)
    (r : Fin 4096) (q : Fin 8192) : EReal :=
  Ideal.tanh (∑ t' : Fin 128, ((∑ j : Fin 4096, A (ix2 j r) * Y (ix2 j t')) * Dc (ix2 r (0 : Fin 1))) * Wr (ix2 t' q))

/-- The 4096 × 8192 output. -/
def flatResult (A : S4096x4096.Idx → EReal) (Y : S4096x128.Idx → EReal) (Wr : S128x8192.Idx → EReal) (Dc : S4096x1.Idx → EReal) :
    S4096x8192.Idx → EReal :=
  fun i => flatEntry A Y Wr Dc (i 0) (i 1)

/-- What a point stores at `x` is the output's entry at `i`, when `i` is `x` moved down by T blocks of 128 rows and
    the point's operands are the arrays' blocks at T. -/
theorem point_entry (A : S4096x4096.Idx → EReal) (Y : S4096x128.Idx → EReal) (Wr : S128x8192.Idx → EReal) (Dc : S4096x1.Idx → EReal)
    (a y : Vec Ideal S4096x128 .bf16) (dc : Vec Ideal S128x1 .f32) (wr : Vec Ideal S128x8192 .bf16)
    (x : S128x8192.Idx) (i : S4096x8192.Idx) (T : Nat)
    (hi0 : (i 0).val = T * 128 + (x 0).val) (hi1 : (i 1).val = (x 1).val)
    (ha : ∀ (j : Fin 4096) (p : Fin 128) (r : Fin 4096), r.val = T * 128 + p.val → a (ix2 j p) = A (ix2 j r))
    (hy : ∀ k, y k = Y k) (hw : ∀ k, wr k = Wr k)
    (hd : ∀ (p : Fin 128) (r : Fin 4096), r.val = T * 128 + p.val → dc (ix2 p (0 : Fin 1)) = Dc (ix2 r (0 : Fin 1))) :
    k0_pay1 (F := Ideal) a y dc wr x = flatResult A Y Wr Dc i := by
  obtain ⟨p, q, rfl⟩ : ∃ (p : Fin 128) (q : Fin 8192), x = ix2 p q := ⟨x 0, x 1, eq_ix2 x⟩
  obtain ⟨r, q', rfl⟩ : ∃ (r : Fin 4096) (q' : Fin 8192), i = ix2 r q' := ⟨i 0, i 1, eq_ix2 i⟩
  have hr : r.val = T * 128 + p.val := hi0
  obtain rfl : q' = q := Fin.ext hi1
  rw [payload_apply]
  show _ = flatEntry A Y Wr Dc r q'
  unfold flatEntry
  refine congrArg Ideal.tanh (Finset.sum_congr rfl fun t' _ => ?_)
  rw [hd p r hr, hw]
  refine congrArg (fun z => z * Dc (ix2 r (0 : Fin 1)) * Wr (ix2 t' q')) (Finset.sum_congr rfl fun j _ => ?_)
  rw [ha j p r hr, hy]

/-! ## The blocks the points hold -/

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the adjacency tile and the output move with the point, the normalizer's rows too,
    the features and the weights stay. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The adjacency tile at point t: columns 128 t … 128 t + 127. -/
theorem block_adjacency (c : Dev nD) (t : Fin cfg0.N) (j : Fin 4096) (p : Fin 128) (r : Fin 4096) (hr : r.val = t.val * 128 + p.val) :
    (iblk m c 0 t : Vec Ideal S4096x128 .bf16) (ix2 j p) = (V m c main_v32 : S4096x4096.Idx → EReal) (ix2 j r) := by
  obtain ⟨e0, e1, -⟩ := idx_facts t
  unfold iblk
  rw [View.read_apply]
  show V m c main_v32 _ = V m c main_v32 _
  congr 1
  funext a
  apply Fin.ext
  match a with
  | ⟨0, _⟩ => show win0_0.index t (0 : Fin 2) * 4096 + 1 * j.val = j.val; rw [e0]; omega
  | ⟨1, _⟩ => show win0_0.index t (1 : Fin 2) * 128 + 1 * p.val = r.val; rw [e1, hr]; omega

/-- The features' block at every point is the whole array. -/
theorem block_features (c : Dev nD) (t : Fin cfg0.N) (k : S4096x128.Idx) :
    (iblk m c 1 t : Vec Ideal S4096x128 .bf16) k = (V m c main_v36 : S4096x128.Idx → EReal) k := by
  obtain ⟨-, -, e0, e1, -⟩ := idx_facts t
  unfold iblk
  rw [View.read_apply]
  show V m c main_v36 _ = V m c main_v36 _
  congr 1
  funext a
  apply Fin.ext
  match a with
  | ⟨0, _⟩ => show win0_1.index t (0 : Fin 2) * 4096 + 1 * (k 0).val = (k 0).val; rw [e0]; omega
  | ⟨1, _⟩ => show win0_1.index t (1 : Fin 2) * 128 + 1 * (k 1).val = (k 1).val; rw [e1]; omega

/-- The weights' block at every point is the whole array. -/
theorem block_weights (c : Dev nD) (t : Fin cfg0.N) (k : S128x8192.Idx) :
    (iblk m c 2 t : Vec Ideal S128x8192 .bf16) k = (V m c main_v51 : S128x8192.Idx → EReal) k := by
  obtain ⟨-, -, -, -, e0, e1, -⟩ := idx_facts t
  unfold iblk
  rw [View.read_apply]
  show V m c main_v51 _ = V m c main_v51 _
  congr 1
  funext a
  apply Fin.ext
  match a with
  | ⟨0, _⟩ => show win0_2.index t (0 : Fin 2) * 128 + 1 * (k 0).val = (k 0).val; rw [e0]; omega
  | ⟨1, _⟩ => show win0_2.index t (1 : Fin 2) * 8192 + 1 * (k 1).val = (k 1).val; rw [e1]; omega

/-- The normalizer's block at point t: rows 128 t … 128 t + 127 of the column. -/
theorem block_normalizer (c : Dev nD) (t : Fin cfg0.N) (p : Fin 128) (r : Fin 4096) (hr : r.val = t.val * 128 + p.val) :
    (iblk m c 3 t : Vec Ideal S128x1 .f32) (ix2 p (0 : Fin 1)) = (V m c main_v37 : S4096x1.Idx → EReal) (ix2 r (0 : Fin 1)) := by
  obtain ⟨-, -, -, -, -, -, e0, e1, -⟩ := idx_facts t
  unfold iblk
  rw [View.read_apply]
  show V m c main_v37 _ = V m c main_v37 _
  congr 1
  funext a
  apply Fin.ext
  match a with
  | ⟨0, _⟩ => show win0_3.index t (0 : Fin 2) * 128 + 1 * p.val = r.val; rw [e0, hr]; omega
  | ⟨1, _⟩ => show win0_3.index t (1 : Fin 2) * 1 + 1 * 0 = 0; rw [e1]

end Cert.GcnKernel

end
-- ==== Proof.KernelResult.lean ====
/-
  The kernel program's result, named: the 4096 × 8192 output function of the operand arrays as the region finds them,
  with its columns q = t * 64 + k regrouped into (feature t, channel k) by the host's last operation.
-/
import proofs.«178938_j60765197304390_2_alg».proof.Proof.KernelBlocks

noncomputable section

namespace Cert.GcnKernel

open Cert.KernelIdeal Cert.KernelIdeal.Gen Idealize.ShloMosaic Idealize.ShloMosaic.TcCoe Idealize.SL.Sem

/-- The program's result on core `c`. -/
def kernelResult (m : (ℓ : Loc nD τ sig) → Buf (Elt Ideal) ℓ) (c : Dev nD) : S4096x128x64.Idx → EReal :=
  shapeCast S4096x128x64 (flatResult (V m c main_v32) (V m c main_v36) (V m c main_v51) (V m c main_v37))
    shapeCasts_S4096x8192_S4096x128x64

end Cert.GcnKernel

end
-- ==== Proof.GcnAlgebra.lean ====
/-
  The two algebraic laws behind a normalized graph convolution, on the extended reals.

  The symmetric normalization of an adjacency matrix A by a vector d scales entry (j, i) by d i and by d j. One program
  scales the features by d first, sums over the neighbours j, and scales the sum by d i afterwards; the other scales
  the matrix entries and sums once. The two agree because a factor that does not depend on j moves across the sum
  over j — a law of the real numbers, which fails at the infinities, so every term is assumed real here.

  The second law needs no finiteness: a sum of products against one row of an identity matrix (entries 1 on the
  diagonal, 0 off it) picks out the diagonal term, because 0 * x = 0 and x * 0 = 0 for every extended real x.
-/
import Idealize.ShloMosaic.PureOps.Ideal.Laws
import proofs.«178938_j60765197304390_2_alg».proof.Proof.LibRealsInEReal

noncomputable section

namespace Cert.GcnAlgebra

open Cert.Lib.RealsInEReal

/-- Among real numbers, `(∑ j, a j * (d j * x j)) * e = ∑ j, ((a j * e) * d j) * x j`: the factor `e`, which does not
    depend on the neighbour `j`, moves inside the sum over the neighbours. -/
theorem sum_mul_scale {ι : Type*} [Fintype ι] (a d x : ι → EReal) (e : EReal)
    (ha : ∀ j, IsReal (a j)) (hd : ∀ j, IsReal (d j)) (hx : ∀ j, IsReal (x j)) (he : IsReal e) :
    (∑ j, a j * (d j * x j)) * e = ∑ j, ((a j * e) * d j) * x j := by
  choose a' ha' using ha
  choose d' hd' using hd
  choose x' hx' using hx
  obtain ⟨e', rfl⟩ := he
  have hl : ∀ j, a j * (d j * x j) = ((a' j * (d' j * x' j) : ℝ) : EReal) := fun j => by
    rw [ha', hd', hx', EReal.coe_mul, EReal.coe_mul]
  have hr : ∀ j, ((a j * (e' : EReal)) * d j) * x j = ((((a' j * e') * d' j) * x' j : ℝ) : EReal) := fun j => by
    rw [ha', hd', hx', EReal.coe_mul, EReal.coe_mul, EReal.coe_mul]
  rw [Finset.sum_congr rfl (fun j _ => hl j), Finset.sum_congr rfl (fun j _ => hr j), ← coe_sum, ← coe_sum,
    ← EReal.coe_mul, Finset.sum_mul]
  exact congrArg _ (Finset.sum_congr rfl fun j _ => by ring)

/-- A sum of products against one row of an identity matrix picks out the diagonal term:
    `∑ t', y t' * (δ t' t * w) = y t * w` for all extended reals `y t'` and `w`. -/
theorem sum_mul_delta {n : ℕ} (y : Fin n → EReal) (δ : Fin n → EReal) (w : EReal) (t : Fin n)
    (hδ : ∀ t', δ t' = if t' = t then 1 else 0) :
    ∑ t', y t' * (δ t' * w) = y t * w := by
  rw [Finset.sum_eq_single t]
  · rw [hδ, if_pos rfl, one_mul]
  · intro b _ hb
    rw [hδ, if_neg hb, zero_mul, mul_zero]
  · intro h
    exact absurd (Finset.mem_univ t) h

end Cert.GcnAlgebra

end
-- ==== Proof.KernelBridge.lean ====
/-
  The kernel computes the normalized graph convolution of the specification.

  With the operands the host prepares — y[j, t'] = d[j] * x[j, t'], the normalizer column, and the replicated weights
  Wr[t', t * 64 + k] = δ(t', t) * w[0, k] — the kernel's entry at node n and column t * 64 + k is

      tanh ( ∑ t', ((∑ j, A[j, n] * (d[j] * x[j, t'])) * d[n]) * (δ(t', t) * w[0, k]) ).

  The sum over t' against a row of the identity matrix keeps the term t' = t; then the factor d[n] moves inside the
  sum over the neighbours j, which needs A, d and x real. What is left is the specification's entry at (n, t, k).
-/
import proofs.«178938_j60765197304390_2_alg».proof.Proof.KernelHost
import proofs.«178938_j60765197304390_2_alg».proof.Proof.KernelResult
import proofs.«178938_j60765197304390_2_alg».proof.Proof.GcnSpec
import proofs.«178938_j60765197304390_2_alg».proof.Proof.GcnAlgebra
import proofs.«178938_j60765197304390_2_alg».proof.Proof.LibRealsInEReal

noncomputable section

namespace Cert.GcnKernel

open Cert.KernelIdeal Cert.KernelIdeal.Gen Idealize.ShloMosaic Idealize.ShloMosaic.TcCoe Idealize.SL.Sem
open Idealize.ShloMosaic.ValueIdx Cert.Lib.RealsInEReal

/-! ## The host's operands read at an index -/

/-- The scaled features at (j, t): `d[j] * x[j, t]`. -/
theorem scaledFeatures_apply (d : FVec Ideal S4096 .f32) (x : FVec Ideal S4096x128 .f32) (j : Fin 4096) (t : Fin 128) :
    scaledFeatures d x (ix2 j t) = d (ix1 j) * x (ix2 j t) := by
  unfold scaledFeatures
  rw [mulf_apply]
  refine congrArg (· * x (ix2 j t)) ?_
  rw [broadcastInDim_apply _ bcast_S4096x1_S4096x128_0_1 _ (ix2 j t) (ix2 j (0 : Fin 1)) (fun a => match a with
    | ⟨0, _⟩ => by show j.val = if (4096 : Nat) = 1 then 0 else j.val; rw [if_neg (by decide)]
    | ⟨1, _⟩ => by show 0 = if (1 : Nat) = 1 then 0 else t.val; rw [if_pos rfl])]
  exact broadcastInDim_apply _ bcast_S4096_S4096x1_0 d (ix2 j (0 : Fin 1)) (ix1 j) (fun a => match a with
    | ⟨0, _⟩ => by show j.val = if (4096 : Nat) = 1 then 0 else j.val; rw [if_neg (by decide)])

/-- The normalizer column at (r, 0): `d[r]`. -/
theorem normalizerColumn_apply (d : FVec Ideal S4096 .f32) (r : Fin 4096) :
    normalizerColumn d (ix2 r (0 : Fin 1)) = d (ix1 r) := by
  unfold normalizerColumn
  exact broadcastInDim_apply _ bcast_S4096_S4096x1_0 d (ix2 r (0 : Fin 1)) (ix1 r) (fun a => match a with
    | ⟨0, _⟩ => by show r.val = if (4096 : Nat) = 1 then 0 else r.val; rw [if_neg (by decide)])

/-- Two coordinates below 128 compare equal as 32-bit integers exactly when they are equal. -/
theorem coordinate_eq_bits : ∀ a b : Fin 128,
    IntOp.cmpi .eq (IntOp.addi (BitVec.ofNat 32 a.val) 0#32) (BitVec.ofNat 32 b.val) = if a = b then 1#1 else 0#1 := by
  decide +kernel

/-- The host's identity matrix at (a, b): one on the diagonal, zero off it. -/
theorem identity128_apply (a b : Fin 128) : identity128 (ix2 a b) = if a = b then (1 : EReal) else 0 := by
  show (((IntOp.cmpi .eq (IntOp.addi (BitVec.ofNat 32 a.val) 0#32) (BitVec.ofNat 32 b.val)).toNat : ℝ) : EReal) = _
  rw [coordinate_eq_bits a b]
  by_cases h : a = b
  · rw [if_pos h, if_pos h]; simp
  · rw [if_neg h, if_neg h]; simp

/-- The replicated weights at (t', t * 64 + k): `δ(t', t) * w[0, k]`. -/
theorem replicatedWeights_apply (w : FVec Ideal S1x64 .f32) (t' t : Fin 128) (k : Fin 64) (q : Fin 8192) (hq : q.val = t.val * 64 + k.val) :
    replicatedWeights w (ix2 t' q) = (if t' = t then (1 : EReal) else 0) * w (ix2 (0 : Fin 1) k) := by
  unfold replicatedWeights
  rw [shapeCast_apply _ shapeCasts_S128x128x64_S128x8192 (ix2 t' q) (ix3 t' t k) (by
    rw [Shape.rowMajor_val_three, Shape.rowMajor_val_two]
    show (t'.val * 128 + t.val) * 64 + k.val = t'.val * 8192 + q.val
    omega)]
  rw [mulf_apply]
  refine congr (congrArg HMul.hMul ?_) ?_
  · rw [broadcastInDim_apply _ bcast_S128x128x1_S128x128x64_0_1_2 _ (ix3 t' t k) (ix3 t' t (0 : Fin 1)) (fun a => match a with
      | ⟨0, _⟩ => by show t'.val = if (128 : Nat) = 1 then 0 else t'.val; rw [if_neg (by decide)]
      | ⟨1, _⟩ => by show t.val = if (128 : Nat) = 1 then 0 else t.val; rw [if_neg (by decide)]
      | ⟨2, _⟩ => by show 0 = if (1 : Nat) = 1 then 0 else k.val; rw [if_pos rfl]),
      broadcastInDim_apply _ bcast_S128x128_S128x128x1_0_1 _ (ix3 t' t (0 : Fin 1)) (ix2 t' t) (fun a => match a with
      | ⟨0, _⟩ => by show t'.val = if (128 : Nat) = 1 then 0 else t'.val; rw [if_neg (by decide)]
      | ⟨1, _⟩ => by show t.val = if (128 : Nat) = 1 then 0 else t.val; rw [if_neg (by decide)])]
    exact identity128_apply t' t
  · rw [broadcastInDim_apply _ bcast_S1x1x64_S128x128x64_0_1_2 _ (ix3 t' t k) (ix3 (0 : Fin 1) (0 : Fin 1) k) (fun a => match a with
      | ⟨0, _⟩ => by show 0 = if (1 : Nat) = 1 then 0 else t'.val; rw [if_pos rfl]
      | ⟨1, _⟩ => by show 0 = if (1 : Nat) = 1 then 0 else t.val; rw [if_pos rfl]
      | ⟨2, _⟩ => by show k.val = if (64 : Nat) = 1 then 0 else k.val; rw [if_neg (by decide)]),
      broadcastInDim_apply _ bcast_S64_S1x1x64_2 _ (ix3 (0 : Fin 1) (0 : Fin 1) k) (ix1 k) (fun a => match a with
      | ⟨0, _⟩ => by show k.val = if (64 : Nat) = 1 then 0 else k.val; rw [if_neg (by decide)])]
    exact shapeCast_apply w shapeCasts_S1x64_S64 (ix1 k) (ix2 (0 : Fin 1) k) (by
      rw [Shape.rowMajor_val_two, Shape.rowMajor_val_one]
      show 0 * 64 + k.val = k.val
      omega)

/-! ## The kernel's result is the specification's -/

variable (m : (ℓ : Loc nD τ sig) → Buf (Elt Ideal) ℓ)

/-- With real adjacency, normalizer and features, the kernel's result array is the specification's result of the
    adjacency and the normalizer the reference computes from the same edge arguments. -/
theorem kernel_is_spec (c : Dev nD)
    (hA : ∀ i, IsReal (Cert.ReferenceIdeal.Read.val_main_v25 (F := Ideal) (m ((c : Thread nD τ).loc main_arg1)) (m ((c : Thread nD τ).loc main_arg2)) i))
    (hd : ∀ i, IsReal (Cert.ReferenceIdeal.Read.val_main_v31 (F := Ideal) (m ((c : Thread nD τ).loc main_arg1)) (m ((c : Thread nD τ).loc main_arg2)) i))
    (hx : ∀ i, IsReal ((m ((c : Thread nD τ).loc main_arg0) : S4096x128.Idx → EReal) i)) :
    kernelResult m c = Cert.GcnSpec.result
      (Cert.ReferenceIdeal.Read.val_main_v25 (F := Ideal) (m ((c : Thread nD τ).loc main_arg1)) (m ((c : Thread nD τ).loc main_arg2)))
      (Cert.ReferenceIdeal.Read.val_main_v31 (F := Ideal) (m ((c : Thread nD τ).loc main_arg1)) (m ((c : Thread nD τ).loc main_arg2)))
      (m ((c : Thread nD τ).loc main_arg0)) (m ((c : Thread nD τ).loc main_arg3)) := by
  unfold kernelResult
  rw [entry_adjacency, entry_normalizer, entry_features, entry_weights]
  generalize Cert.ReferenceIdeal.Read.val_main_v25 (F := Ideal) (m ((c : Thread nD τ).loc main_arg1)) (m ((c : Thread nD τ).loc main_arg2)) = A at hA ⊢
  generalize Cert.ReferenceIdeal.Read.val_main_v31 (F := Ideal) (m ((c : Thread nD τ).loc main_arg1)) (m ((c : Thread nD τ).loc main_arg2)) = d at hd ⊢
  generalize (m ((c : Thread nD τ).loc main_arg0) : S4096x128.Idx → EReal) = x at hx ⊢
  generalize (m ((c : Thread nD τ).loc main_arg3) : S1x64.Idx → EReal) = w
  funext i
  obtain ⟨n, t, k, rfl⟩ : ∃ (n : Fin 4096) (t : Fin 128) (k : Fin 64), i = ix3 n t k := ⟨i 0, i 1, i 2, eq_ix3 i⟩
  have hq : t.val * 64 + k.val < 8192 := by have := t.isLt; have := k.isLt; omega
  rw [shapeCast_apply _ shapeCasts_S4096x8192_S4096x128x64 (ix3 n t k) (ix2 n (⟨t.val * 64 + k.val, hq⟩ : Fin 8192)) (by
    rw [Shape.rowMajor_val_two, Shape.rowMajor_val_three]
    show n.val * 8192 + (t.val * 64 + k.val) = (n.val * 128 + t.val) * 64 + k.val
    omega)]
  show flatEntry A (scaledFeatures d x) (replicatedWeights w) (normalizerColumn d) n ⟨t.val * 64 + k.val, hq⟩
    = Cert.GcnSpec.entry A d x w n t k
  unfold flatEntry Cert.GcnSpec.entry
  refine congrArg Ideal.tanh ?_
  have e1 : ∀ t' : Fin 128,
      ((∑ j : Fin 4096, A (ix2 j n) * scaledFeatures d x (ix2 j t')) * normalizerColumn d (ix2 n (0 : Fin 1)))
          * replicatedWeights w (ix2 t' (⟨t.val * 64 + k.val, hq⟩ : Fin 8192))
        = ((∑ j : Fin 4096, A (ix2 j n) * (d (ix1 j) * x (ix2 j t'))) * d (ix1 n))
          * ((if t' = t then (1 : EReal) else 0) * w (ix2 (0 : Fin 1) k)) := fun t' => by
    rw [normalizerColumn_apply, replicatedWeights_apply w t' t k _ rfl]
    refine congrArg (fun z => z * d (ix1 n) * ((if t' = t then (1 : EReal) else 0) * w (ix2 (0 : Fin 1) k)))
      (Finset.sum_congr rfl fun j _ => ?_)
    rw [scaledFeatures_apply]
  refine (Finset.sum_congr rfl fun t' _ => e1 t').trans ?_
  refine (Cert.GcnAlgebra.sum_mul_delta (fun t' : Fin 128 => (∑ j : Fin 4096, A (ix2 j n) * (d (ix1 j) * x (ix2 j t'))) * d (ix1 n))
    (fun t' : Fin 128 => if t' = t then (1 : EReal) else 0) (w (ix2 (0 : Fin 1) k)) t (fun _ => rfl)).trans ?_
  refine congrArg (· * w (ix2 (0 : Fin 1) k)) ?_
  exact Cert.GcnAlgebra.sum_mul_scale (fun j : Fin 4096 => A (ix2 j n)) (fun j : Fin 4096 => d (ix1 j)) (fun j : Fin 4096 => x (ix2 j t))
    (d (ix1 n)) (fun j => hA _) (fun j => hd _) (fun j => hx _) (hd _)

end Cert.GcnKernel

end
-- ==== Proof.KernelValue.lean ====
/-
  The kernel's result array.

  Point T writes rows 128 T … 128 T + 127 of the 4096 × 8192 output, and what it writes is that block of one function
  of the operand arrays; the 32 row blocks cover the output, so after the run the output is that function. The host's
  last operation only regroups the columns q = t * 64 + k into the pair (t, k).
-/
import proofs.«178938_j60765197304390_2_alg».proof.Proof.Gen.KernelIdeal.Frame
import proofs.«178938_j60765197304390_2_alg».proof.Proof.KernelBlocks
import proofs.«178938_j60765197304390_2_alg».proof.Proof.KernelResult
import Idealize.ShloMosaic.Lib.Pipeline.Value
import Idealize.ShloMosaic.Lib.StableHlo.Run

noncomputable section

namespace Cert.GcnKernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## From the blocks to the array -/

/-- Reading a block back: contents `P` of point t's staging buffer are block t of an array function `G` as soon as they
    agree entry by entry, the buffer's entry x against the array's entry at x moved into block t — for any `P` and `G`. -/
theorem block_of_entries (t : Fin cfg0.N) (P : Vec Ideal S128x8192 .f32) (G : S4096x8192.Idx → EReal)
    (h : ∀ x : ((cfg0.win 4).xblock (grid0.coords t)).Idx,
      P ((cfg0.win 4).xinj (grid0.coords t) x) = G (((cfg0.win 4).blk t).view.emb x)) :
    (cfg0.win 4).cut (grid0.coords t) P = ((cfg0.win 4).blk t).view.read (Elt Ideal) G :=
  funext fun x => h x

/-- What point t writes back is block t of the output function of the operand arrays as the region finds them. -/
theorem flushed_eq (c : Dev nD) (t : Fin cfg0.N) :
    (dats m 0 c).flushed 4 t = ((cfg0.win 4).blk t).view.read (Elt Ideal)
      (flatResult (V m c main_v32) (V m c main_v36) (V m c main_v51) (V m c main_v37)) := by
  show (cfg0.win 4).cut (grid0.coords t) ((dats m 0 c).after 4 t) = _
  rw [after0_4]
  unfold out0_4
  rw [View.canon_unit_zero hz]
  simp only [View.ld_unit_zero (S := S4096x128) hz, View.ld_unit_zero (S := S128x1) hz, View.ld_unit_zero (S := S128x8192) hz]
  obtain ⟨-, -, -, -, -, -, -, -, e0, e1⟩ := idx_facts t
  refine block_of_entries t (k0_pay1 (F := Ideal) (iblk m c 0 t) (iblk m c 1 t) (iblk m c 3 t) (iblk m c 2 t))
    (flatResult (V m c main_v32) (V m c main_v36) (V m c main_v51) (V m c main_v37)) (fun x => ?_)
  have h0 : ((((cfg0.win 4).blk t).view.emb x) 0).val = t.val * 128 + (((cfg0.win 4).xinj (grid0.coords t) x) 0).val := by
    show win0_4.index t (0 : Fin 2) * 128 + 1 * (x 0).val = t.val * 128 + (x 0).val
    rw [e0]; omega
  have h1 : ((((cfg0.win 4).blk t).view.emb x) 1).val = (((cfg0.win 4).xinj (grid0.coords t) x) 1).val := by
    show win0_4.index t (1 : Fin 2) * 8192 + 1 * (x 1).val = (x 1).val
    rw [e1]; omega
  exact point_entry (V m c main_v32) (V m c main_v36) (V m c main_v51) (V m c main_v37)
    (iblk m c 0 t) (iblk m c 1 t) (iblk m c 3 t) (iblk m c 2 t) ((cfg0.win 4).xinj (grid0.coords t) x)
    (((cfg0.win 4).blk t).view.emb x) t.val h0 h1
    (fun j p r hr => block_adjacency m c t j p r hr) (fun k => block_features m c t k) (fun k => block_weights m c t k)
    (fun p r hr => block_normalizer m c t p r hr)

/-- An index of the output is in point t's block iff each coordinate is in the block's range on its axis. -/
theorem mem_blk (t : Fin cfg0.N) (i : S4096x8192.Idx) :
    i ∈ ((cfg0.win 4).blk t).view.set ↔ ∀ a : Fin 2, win0_4.index t a * S128x8192.size a ≤ (i a).val
      ∧ (i a).val < win0_4.index t a * S128x8192.size a + S128x8192.size a := by
  show i ∈ ((View.whole main_v52).slice (win0_4.rect t)).set ↔ _
  rw [View.set_slice_whole, Rect.mem_set_unit]
  exact Iff.rfl

/-- Every index of the output lies in the block of the point that is its row divided by 128. -/
theorem covered (i : S4096x8192.Idx) :
    ∃ t : Fin cfg0.N, (cfg0.win 4).flush t = true ∧ i ∈ ((cfg0.win 4).blk t).view.set := by
  have hN : cfg0.N = 32 := N_0
  have h0 : (i 0).val < 4096 := (i 0).isLt
  have h1 : (i 1).val < 8192 := (i 1).isLt
  let t : Fin cfg0.N := ⟨(i 0).val / 128, by rw [hN]; omega⟩
  have ht : t.val = (i 0).val / 128 := rfl
  obtain ⟨-, -, -, -, -, -, -, -, e0, e1⟩ := idx_facts t
  refine ⟨t, flush0_4 t, ?_⟩
  rw [mem_blk]
  intro a
  match a with
  | ⟨0, _⟩ =>
    show win0_4.index t (0 : Fin 2) * 128 ≤ (i 0).val ∧ (i 0).val < win0_4.index t (0 : Fin 2) * 128 + 128
    rw [e0, ht]; omega
  | ⟨1, _⟩ =>
    show win0_4.index t (1 : Fin 2) * 8192 ≤ (i 1).val ∧ (i 1).val < win0_4.index t (1 : Fin 2) * 8192 + 8192
    rw [e1]; omega

/-- The output array after the run. -/
theorem final (c : Dev nD) :
    (dats m 0 c).arrAt 4 cfg0.N = flatResult (V m c main_v32) (V m c main_v36) (V m c main_v51) (V m c main_v37) :=
  (dats m 0 c).arrAt_eq_of_cover 4 _ (fun t _ => flushed_eq m c t) covered

/-! ## The host's last operation, and the run -/

/-- After the frame run the result buffer holds `kernelResult`. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v53) = kernelResult m c := by
  refine ((h c).2 main_v53 (Pipeline.mem_restRefs_of main_v53 (by decide) (by decide))).trans ?_
  unfold Pipeline.afterTail₀
  show StableHlo.after hostOps1 _ (Proc.devRef .tc main_v53) = _
  after_results
  unfold kernelResult
  rw [Pipeline.withArrays_arr spec0 launch0.win.arr_inj c _ _ 4, final m c]
  rfl

/-- The kernel's run, read: the result at `kernelResult`, the arguments unchanged. -/
theorem run : θ_run defs (onTc (τ := τ) (main (F := Ideal))) ⟨m, fun _ => 0, ρ⟩ fun r => ∀ c : Dev nD,
      r.2.mem ((c : Thread nD τ).loc main_v53) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨result_eq m r h c,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.GcnKernel

end
-- ==== Proof.lean ====
/- A graph convolution with symmetric normalization, an outer product with a weight row, and tanh: the kernel
   against the plain array program, on the extended reals.

   Both programs build the adjacency with self-loops A from the edge list and the normalizer d = (row sums of A)^(-1/2)
   (zero where a row sum is not positive) by the same operations. The reference forms the matrix with entries
   (A[j, n] * d[n]) * d[j], multiplies it by the features x, and takes tanh of the outer product with the weights w:

       result[n, t, k] = tanh ( ( ∑ j, ((A[j, n] * d[n]) * d[j]) * x[j, t] ) * w[0, k] ).

   The kernel scales the features first (y[j, t] = d[j] * x[j, t]), contracts a column tile of A against y, scales row n
   of the product by d[n], and multiplies by a 128 × 8192 matrix holding w along a block diagonal, which both selects
   the feature t and forms the outer product. The two agree because (1) a sum against a row of an identity matrix
   keeps one term, and (2) the factor d[n] moves inside the sum over j — a law of real numbers, for which the
   precondition (finite inputs) is used: finite edge weights make A and d real.

   Modules: GcnSpec (the formula), GcnAlgebra (the two laws), RefValue (the reference is the formula), FiniteInputs and
   GraphReal (finite inputs, hence real A and d), KernelPayload (one grid point's stored entry), KernelHost (the operands
   the region finds), KernelBlocks and KernelValue (the blocks a point holds, the kernel's result array), KernelBridge (the kernel is the formula). -/
import proofs.«178938_j60765197304390_2_alg».proof.Defs
import proofs.«178938_j60765197304390_2_alg».proof.Proof.Gen.Kernel
import proofs.«178938_j60765197304390_2_alg».proof.Proof.Gen.Kernel.Skeleton
import proofs.«178938_j60765197304390_2_alg».proof.Proof.Gen.Kernel.Launch
import proofs.«178938_j60765197304390_2_alg».proof.Proof.Gen.Kernel.Points
import proofs.«178938_j60765197304390_2_alg».proof.Proof.Gen.Kernel.Frame
import proofs.«178938_j60765197304390_2_alg».proof.Proof.Gen.KernelIdeal
import proofs.«178938_j60765197304390_2_alg».proof.Proof.Gen.KernelIdeal.Skeleton
import proofs.«178938_j60765197304390_2_alg».proof.Proof.Gen.KernelIdeal.Launch
import proofs.«178938_j60765197304390_2_alg».proof.Proof.Gen.KernelIdeal.Points
import proofs.«178938_j60765197304390_2_alg».proof.Proof.Gen.KernelIdeal.Frame
import proofs.«178938_j60765197304390_2_alg».proof.Proof.Gen.ReferenceIdeal
import proofs.«178938_j60765197304390_2_alg».proof.Proof.Gen.ReferenceIdeal.Run
import proofs.«178938_j60765197304390_2_alg».proof.Proof.Gen.ReferenceIdeal.Read
import proofs.«178938_j60765197304390_2_alg».proof.Proof.Gen.Pre_finite_inputs
import proofs.«178938_j60765197304390_2_alg».proof.Proof.RefValue
import proofs.«178938_j60765197304390_2_alg».proof.Proof.GraphReal
import proofs.«178938_j60765197304390_2_alg».proof.Proof.FiniteInputs
import proofs.«178938_j60765197304390_2_alg».proof.Proof.KernelBridge
import proofs.«178938_j60765197304390_2_alg».proof.Proof.KernelValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments alone: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The kernel on the extended reals is the printed kernel's own text: nothing was rewritten. -/
theorem preserves : Cert.preserves_Kernel_KernelIdeal := trivial

/-- From arguments that agree, both programs end with the specification's result: the reference by reading it index
    by index, the kernel through the two algebraic laws, with the adjacency, the normalizer and the features real
    because the inputs are finite. -/
theorem algebraic : Cert.algebraic_KernelIdeal_ReferenceIdeal := by
  intro m ρ m' ρ' hpre hagree
  refine ⟨fun c => Cert.GcnKernel.kernelResult m c, Cert.GcnKernel.run m ρ, ?_⟩
  refine (θ_run Cert.ReferenceIdeal.defs _ _).mono (fun _ h c => ⟨?_, (h c).2⟩)
    (Cert.ReferenceIdeal.Value.run (F := Ideal) m' ρ')
  obtain ⟨hx, hw⟩ := Cert.GcnFinite.inputs_real _ _ _ _ (hpre c)
  rw [(h c).1, Cert.ReferenceIdeal.Read.val_main_v46_eq, Cert.GcnRef.reference_eq, (hagree c).1, (hagree c).2.1,
    (hagree c).2.2.1, (hagree c).2.2.2]
  exact (Cert.GcnKernel.kernel_is_spec m c (Cert.GcnRef.adjacency_real _ _ hw) (Cert.GcnRef.normalizer_real _ _ hw) hx).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
